-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x10000x128 : Shape := ⟨3, ![2, 10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩

class Facts : Prop where
  bcast_S_S2x10000x128 : S_.BroadcastsInDim S2x10000x128 (![] : Fin 0 → Fin S2x10000x128.rank)
  reducesTo_S2x10000x128_S_d0_1_2 : S2x10000x128.ReducesTo [0, 1, 2] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S2x10000x128 .f32) (main_arg1 : FVec F S10000x10000 .f32) (main_arg2 : FVec F S128x128 .f32) (main_arg3 : FVec F S128 .f32) : IVec S_ 1 :=
  let main_v0 : FVec F S2x10000x128 .f32 := Host.absf main_arg0
  let main_cst : FVec F S_ .f32 := constant S_ .f32 0x7F800000#32
  let main_v1 : FVec F S2x10000x128 .f32 := broadcastInDim S2x10000x128 ![] bcast_S_S2x10000x128 main_cst
  let main_v2 : IVec S2x10000x128 1 := cmpf .olt main_v0 main_v1
  let main_c : IVec S_ 1 := constantI S_ 1 1#1
  let main_v3 : IVec S_ 1 := (fun x v => Host.reduce IntOp.andi x v reducesTo_S2x10000x128_S_d0_1_2 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S2x10000x128 : Shape := ⟨3, ![2, 10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S400x10000 : Shape := ⟨2, ![400, 10000]⟩
abbrev S2x400x128 : Shape := ⟨3, ![2, 400, 128]⟩
abbrev S10000x256 : Shape := ⟨2, ![10000, 256]⟩
abbrev S1x10000x128 : Shape := ⟨3, ![1, 10000, 128]⟩
abbrev S10000x128 : Shape := ⟨2, ![10000, 128]⟩
abbrev S400x256 : Shape := ⟨2, ![400, 256]⟩
abbrev S400x128 : Shape := ⟨2, ![400, 128]⟩
abbrev S1x400x128 : Shape := ⟨3, ![1, 400, 128]⟩

abbrev nBuf : Space → Nat
  | .hbm => 6
  | .vmem => 8
  | .smem => 0
  | _ => 0

abbrev bufTy : (tb : Table) → Fin (tcTables nBuf tb) → BufTy
  | .hbm, ⟨0, _⟩ => ⟨S2x10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S1x128, .f32⟩
  | .hbm, ⟨5, _⟩ => ⟨S2x10000x128, .f32⟩
  | .local _ .vmem, ⟨0, _⟩ => ⟨S2x10000x128, .f32⟩
  | .local _ .vmem, ⟨1, _⟩ => ⟨S128x128, .f32⟩
  | .local _ .vmem, ⟨2, _⟩ => ⟨S400x10000, .f32⟩
  | .local _ .vmem, ⟨3, _⟩ => ⟨S400x10000, .f32⟩
  | .local _ .vmem, ⟨4, _⟩ => ⟨S1x128, .f32⟩
  | .local _ .vmem, ⟨5, _⟩ => ⟨S2x400x128, .f32⟩
  | .local _ .vmem, ⟨6, _⟩ => ⟨S2x400x128, .f32⟩
  | .local _ .vmem, ⟨7, _⟩ => ⟨S10000x256, .f32⟩
  | _, _ => ⟨S2x10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![25], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S2x10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S400x10000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2x400x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S128_S1x128 : S128.ShapeCasts S1x128
  inb_S128x128_S128x128_0_0 : ∀ a, (![0, 0] : Fin 2 → Nat) a + S128x128.size a ≤ S128x128.size a
  h_S128x128 : 0 < S128x128.numel
  inb_S2x10000x128_S1x10000x128_0_0_0 : ∀ a, (![0, 0, 0] : Fin 3 → Nat) a + S1x10000x128.size a ≤ S2x10000x128.size a
  h_S1x10000x128 : 0 < S1x10000x128.numel
  shapeCasts_S1x10000x128_S10000x128 : S1x10000x128.ShapeCasts S10000x128
  inb_S10000x256_S10000x128_0_0 : ∀ a, (![0, 0] : Fin 2 → Nat) a + S10000x128.size a ≤ S10000x256.size a
  h_S10000x128 : 0 < S10000x128.numel
  shapeCasts_S10000x128_S10000x128 : S10000x128.ShapeCasts S10000x128
  inb_S2x10000x128_S1x10000x128_1_0_0 : ∀ a, (![1, 0, 0] : Fin 3 → Nat) a + S1x10000x128.size a ≤ S2x10000x128.size a
  inb_S10000x256_S10000x128_0_128 : ∀ a, (![0, 128] : Fin 2 → Nat) a + S10000x128.size a ≤ S10000x256.size a
  inb_S400x10000_S400x10000_0_0 : ∀ a, (![0, 0] : Fin 2 → Nat) a + S400x10000.size a ≤ S400x10000.size a
  h_S400x10000 : 0 < S400x10000.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S10000x256_S10000x256_0_0 : ∀ a, (![0, 0] : Fin 2 → Nat) a + S10000x256.size a ≤ S10000x256.size a
  h_S10000x256 : 0 < S10000x256.numel
  slices_S400x256_o0_0_S400x128 : S400x256.Slices ![0, 0] S400x128
  broadcasts_S1x128_S400x128 : S1x128.Broadcasts S400x128
  inb_S2x400x128_S1x400x128_0_0_0 : ∀ a, (![0, 0, 0] : Fin 3 → Nat) a + S1x400x128.size a ≤ S2x400x128.size a
  h_S1x400x128 : 0 < S1x400x128.numel
  shapeCasts_S1x400x128_S400x128 : S1x400x128.ShapeCasts S400x128
  shapeCasts_S400x128_S1x400x128 : S400x128.ShapeCasts S1x400x128
  slices_S400x256_o0_128_S400x128 : S400x256.Slices ![0, 128] S400x128
  inb_S2x400x128_S1x400x128_1_0_0 : ∀ a, (![1, 0, 0] : Fin 3 → Nat) a + S1x400x128.size a ≤ S2x400x128.size a
  dot_S10000x128_S128x128_S10000x128_1_0_0_1_n_n_wf : DotDims.WF S10000x128 S128x128 S10000x128 [1] [0] [0] [1] [] []
  dot_S400x10000_S10000x256_S400x256_1_0_0_1_n_n_wf : DotDims.WF S400x10000 S10000x256 S400x256 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S2x10000x128.size a ≤ S2x10000x128.size a
  hwx0_0 : ∀ i : grid0.Coords, EltTy.bits .f32 = 32 ∨ (Rect.block (s := S2x10000x128) S2x10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S400x10000.size a ≤ S10000x10000.size a
  hwx0_2 : ∀ i : grid0.Coords, EltTy.bits .f32 = 32 ∨ (Rect.block (s := S10000x10000) S400x10000.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2x400x128.size a ≤ S2x10000x128.size a
  hwx0_4 : ∀ i : grid0.Coords, EltTy.bits .f32 = 32 ∨ (Rect.block (s := S2x10000x128) S2x400x128.size (cc0_transform_4 i) (hinb0_4 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S400x10000_S10000x256_S400x256_1_0_0_1_n_n : DotDims S400x10000 S10000x256 S400x256 where
  lhsContracting := [1]
  rhsContracting := [0]
  lhsNonContracting := [0]
  rhsNonContracting := [1]
  lhsBatch := []
  rhsBatch := []
  wf := dot_S400x10000_S10000x256_S400x256_1_0_0_1_n_n_wf

abbrev win0_0 : Pipeline.Window sig grid0 :=
  Pipeline.Window.ofSpec (Memref.whole main_arg0) S2x10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S400x10000.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S2x400x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2x10000x128 : Shape := ⟨3, ![2, 10000, 128]⟩
abbrev S10000x10000 : Shape := ⟨2, ![10000, 10000]⟩
abbrev S128x128 : Shape := ⟨2, ![128, 128]⟩
abbrev S128 : Shape := ⟨1, ![128]⟩
abbrev S1x10000x128 : Shape := ⟨3, ![1, 10000, 128]⟩
abbrev S10000x128 : Shape := ⟨2, ![10000, 128]⟩
abbrev S1x128 : Shape := ⟨2, ![1, 128]⟩

abbrev nBuf : Space → Nat
  | .hbm => 21
  | .vmem => 0
  | .smem => 0
  | _ => 0

abbrev bufTy : (tb : Table) → Fin (tcTables nBuf tb) → BufTy
  | .hbm, ⟨0, _⟩ => ⟨S2x10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S1x10000x128, .f32⟩
  | .hbm, ⟨5, _⟩ => ⟨S10000x128, .f32⟩
  | .hbm, ⟨6, _⟩ => ⟨S10000x128, .f32⟩
  | .hbm, ⟨7, _⟩ => ⟨S10000x128, .f32⟩
  | .hbm, ⟨8, _⟩ => ⟨S1x128, .f32⟩
  | .hbm, ⟨9, _⟩ => ⟨S10000x128, .f32⟩
  | .hbm, ⟨10, _⟩ => ⟨S10000x128, .f32⟩
  | .hbm, ⟨11, _⟩ => ⟨S1x10000x128, .f32⟩
  | .hbm, ⟨12, _⟩ => ⟨S10000x128, .f32⟩
  | .hbm, ⟨13, _⟩ => ⟨S10000x128, .f32⟩
  | .hbm, ⟨14, _⟩ => ⟨S10000x128, .f32⟩
  | .hbm, ⟨15, _⟩ => ⟨S1x128, .f32⟩
  | .hbm, ⟨16, _⟩ => ⟨S10000x128, .f32⟩
  | .hbm, ⟨17, _⟩ => ⟨S10000x128, .f32⟩
  | .hbm, ⟨18, _⟩ => ⟨S1x10000x128, .f32⟩
  | .hbm, ⟨19, _⟩ => ⟨S1x10000x128, .f32⟩
  | .hbm, ⟨20, _⟩ => ⟨S2x10000x128, .f32⟩
  | _, _ => ⟨S2x10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩

abbrev nD : Nat := 1
abbrev τ : Topo := Topo.v7x

variable {F : FTy → Type} [FloatOps F]

class Facts₀ : Prop where
  slices_S2x10000x128_S1x10000x128_0_0_0 : S2x10000x128.Slices ![0, 0, 0] S1x10000x128
  shapeCasts_S1x10000x128_S10000x128 : S1x10000x128.ShapeCasts S10000x128
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  slices_S2x10000x128_S1x10000x128_1_0_0 : S2x10000x128.Slices ![1, 0, 0] S1x10000x128
  bcast_S10000x128_S1x10000x128_1_2 : S10000x128.BroadcastsInDim S1x10000x128 (![1, 2] : Fin 2 → Fin S1x10000x128.rank)
  concatenates_S1x10000x128_S1x10000x128_S2x10000x128_d0 : Shape.Concatenates [S1x10000x128, S1x10000x128] S2x10000x128 0
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.Pieces.lean ====
/-
  What one run of the kernel body leaves behind, as values.

  The body keeps a [10000, 256] scratch: at the grid's first point it fills columns 0..127 with x[0] · W and columns
  128..255 with x[1] · W (two stores that tile the scratch), and at every point it multiplies the point's 400 rows of
  the adjacency matrix by the whole scratch and stores, for each batch entry b, columns 128·b .. 128·b + 127 of that
  product plus the bias row (two stores that tile the [2, 400, 128] output block).  Here the contents the two kinds of
  point leave are named as functions of what the body loads: `supportCat` for the scratch and `outBlock` for the
  output block, for any float instance.
-/
import proofs.«144595_g91036126806428_cont_sun_m_1138_18_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Layer

open Cert.KernelIdeal Cert.KernelIdeal.Gen

variable {F : FTy → Type} [FloatOps F]

theorem zeros2 : (![0, 0] : Fin 2 → Nat) = fun _ => 0 := funext fun a => by fin_cases a <;> rfl

/-- The scratch after the first point: the two supports side by side, x[1] · W stored last into columns 128..255 over
    x[0] · W in columns 0..127. -/
abbrev supportStores (x0 : Vec F S2x10000x128 .f32) (x1 : Vec F S128x128 .f32) : List (View.Piece (Elt F) S10000x256 .f32) :=
  [⟨Rect.unit ![0, 128] S10000x128.size inb_S10000x256_S10000x128_0_128,
      k0_pay2 x1 (View.ld x0 (Rect.unit ![1, 0, 0] S1x10000x128.size inb_S2x10000x128_S1x10000x128_1_0_0))⟩,
    ⟨Rect.unit ![0, 0] S10000x128.size inb_S10000x256_S10000x128_0_0,
      k0_pay1 x1 (View.ld x0 (Rect.unit ![0, 0, 0] S1x10000x128.size inb_S2x10000x128_S1x10000x128_0_0_0))⟩]

def supportCat (x0 : Vec F S2x10000x128 .f32) (x1 : Vec F S128x128 .f32) : Vec F S10000x256 .f32 :=
  View.canon (supportStores x0 x1)

/-- Loading the whole scratch after those two stores reads `supportCat`. -/
theorem load_after_stores {sg : RefSig} {κ : Kind} {sp : Space} (v : View sg κ sp S10000x256 .f32)
    (x0 : Vec F S2x10000x128 .f32) (x1 : Vec F S128x128 .f32) :
    v.readCov (supportStores x0 x1) (Rect.unit ![0, 0] S10000x256.size inb_S10000x256_S10000x256_0_0).toLoadRect
      = supportCat x0 x1 := by
  rw [View.readCov_eq_canon']
  exact View.ld_unit_zero (S := S10000x256) zeros2 inb_S10000x256_S10000x256_0_0 (supportCat x0 x1)

/-- The output block a point leaves, from the adjacency rows `v3`, the bias row `v4` and the scratch `v6` it loads:
    batch entry 1's slab stored last, over batch entry 0's. -/
def outBlock (v3 : Vec F S400x10000 .f32) (v4 : Vec F S1x128 .f32) (v6 : Vec F S10000x256 .f32) : Vec F S2x400x128 .f32 :=
  View.canon
    [⟨Rect.unit ![1, 0, 0] S1x400x128.size inb_S2x400x128_S1x400x128_1_0_0, k0_pay6 v3 v4 v6⟩,
      ⟨Rect.unit ![0, 0, 0] S1x400x128.size inb_S2x400x128_S1x400x128_0_0_0, k0_pay5 v3 v4 v6⟩]

/-- At the first point the scratch ends as the two supports of the loaded input and weight blocks. -/
theorem scratch_first (c : Dev nD) (i : grid0.Coords) (a1 : Memref sig .tc .vmem S2x10000x128 .f32) (h1 : a1.IsWhole)
    (a2 : Memref sig .tc .vmem S128x128 .f32) (h2 : a2.IsWhole) (a3 : Memref sig .tc .vmem S400x10000 .f32) (h3 : a3.IsWhole)
    (a4 : Memref sig .tc .vmem S1x128 .f32) (h4 : a4.IsWhole) (a5 : Memref sig .tc .vmem S2x400x128 .f32) (h5 : a5.IsWhole)
    (a6 : Memref sig .tc .vmem S10000x256 .f32) (h6 : a6.IsWhole) (hc : cond0_0 i)
    (x0 : Vec F S2x10000x128 .f32) (x1 : Vec F S128x128 .f32) (x2 : Vec F S400x10000 .f32) (x3 : Vec F S1x128 .f32) :
    sout0_A_0 c i a1 h1 a2 h2 a3 h3 a4 h4 a5 h5 a6 h6 hc x0 x1 x2 x3 = supportCat x0 x1 := by
  unfold sout0_A_0
  rw [View.read_writes_eq_canon _ _ _ (scover0_A_0 c i a1 h1 a2 h2 a3 h3 a4 h4 a5 h5 a6 h6 hc x0 x1 x2 x3)]
  unfold kernelRun0_A
  dsimp only
  sl_unfold_words
  simp only [View.readAt_eq_ld, h1.read_unread, h2.read_unread, View.ld_unit_zero (S := S128x128) zeros2]
  rfl

/-- At the first point the output block is computed from the scratch the same body has just filled. -/
theorem out_first (c : Dev nD) (i : grid0.Coords) (a1 : Memref sig .tc .vmem S2x10000x128 .f32) (h1 : a1.IsWhole)
    (a2 : Memref sig .tc .vmem S128x128 .f32) (h2 : a2.IsWhole) (a3 : Memref sig .tc .vmem S400x10000 .f32) (h3 : a3.IsWhole)
    (a4 : Memref sig .tc .vmem S1x128 .f32) (h4 : a4.IsWhole) (a5 : Memref sig .tc .vmem S2x400x128 .f32) (h5 : a5.IsWhole)
    (a6 : Memref sig .tc .vmem S10000x256 .f32) (h6 : a6.IsWhole) (hc : cond0_0 i)
    (x0 : Vec F S2x10000x128 .f32) (x1 : Vec F S128x128 .f32) (x2 : Vec F S400x10000 .f32) (x3 : Vec F S1x128 .f32) :
    out0_A_4 c i a1 h1 a2 h2 a3 h3 a4 h4 a5 h5 a6 h6 hc x0 x1 x2 x3 = outBlock x2 x3 (supportCat x0 x1) := by
  unfold out0_A_4
  rw [View.read_writes_eq_canon _ _ _ (cover0_A_4 c i a1 h1 a2 h2 a3 h3 a4 h4 a5 h5 a6 h6 hc x0 x1 x2 x3)]
  unfold kernelRun0_A
  dsimp only
  sl_unfold_words
  simp only [View.readAt_eq_ld, h1.read_unread, h2.read_unread, h3.read_unread, h4.read_unread,
    View.ld_unit_zero (S := S128x128) zeros2, View.ld_unit_zero (S := S400x10000) zeros2,
    View.ld_unit_zero (S := S1x128) zeros2]
  rw [load_after_stores a6.view x0 x1]
  rfl

/-- At a later point the output block is computed from the scratch the point before left. -/
theorem out_later (c : Dev nD) (i : grid0.Coords) (a1 : Memref sig .tc .vmem S2x10000x128 .f32) (h1 : a1.IsWhole)
    (a2 : Memref sig .tc .vmem S128x128 .f32) (h2 : a2.IsWhole) (a3 : Memref sig .tc .vmem S400x10000 .f32) (h3 : a3.IsWhole)
    (a4 : Memref sig .tc .vmem S1x128 .f32) (h4 : a4.IsWhole) (a5 : Memref sig .tc .vmem S2x400x128 .f32) (h5 : a5.IsWhole)
    (a6 : Memref sig .tc .vmem S10000x256 .f32) (h6 : a6.IsWhole) (hc : ¬cond0_0 i)
    (x0 : Vec F S2x10000x128 .f32) (x1 : Vec F S128x128 .f32) (x2 : Vec F S400x10000 .f32) (x3 : Vec F S1x128 .f32) (xs : Vec F S10000x256 .f32) :
    out0_B_4 c i a1 h1 a2 h2 a3 h3 a4 h4 a5 h5 a6 h6 hc x0 x1 x2 x3 xs = outBlock x2 x3 xs := by
  unfold out0_B_4
  rw [View.read_writes_eq_canon _ _ _ (cover0_B_4 c i a1 h1 a2 h2 a3 h3 a4 h4 a5 h5 a6 h6 hc x0 x1 x2 x3 xs)]
  unfold kernelRun0_B
  dsimp only
  sl_unfold_words
  simp only [View.readAt_eq_ld, h3.read_unread, h4.read_unread, h6.read_unread,
    View.ld_unit_zero (S := S400x10000) zeros2, View.ld_unit_zero (S := S1x128) zeros2,
    View.ld_unit_zero (S := S10000x256) zeros2]
  rfl

end Cert.KernelIdeal.Layer

end
-- ==== Proof.LibPlainDot.lean ====
/-
  A plain matrix product read at an index.

  For the dimension numbers of an ordinary `[M, K] × [K, N] → [M, N]` product (the left operand's axis 1 contracted with the
  right operand's axis 0, no batch axis), the contraction index is its one coordinate, and the operand indices at output
  index `(p, q)` and contraction coordinate `k` are `(p, k)` and `(k, q)`.  So at the extended reals both the host's
  `dot_general` and a `tpu.matmul` into a zero accumulator are `∑ k : Fin K, l (p, k) · r (k, q)`.
-/
import Idealize.ShloMosaic.PureOps.Ideal
import Idealize.ShloMosaic.PureOps.Ideal.Laws
import Idealize.ShloMosaic.Lib.ValueIdx

noncomputable section

namespace Cert.Lib

open Idealize.ShloMosaic Idealize.ShloMosaic.ValueIdx

/-- The contraction sum of a plain product, re-indexed by the contracted coordinate. -/
theorem plain_contr_sum {M K N : Nat} (l : (⟨2, ![M, K]⟩ : Shape).Idx → EReal) (r : (⟨2, ![K, N]⟩ : Shape).Idx → EReal)
    (p : Fin M) (q : Fin N) :
    ∑ k : (DotDims.plain M K N).contr.Idx,
        l ((DotDims.plain M K N).lhsIdx (ix2 p q) k) * r ((DotDims.plain M K N).rhsIdx (ix2 p q) k)
      = ∑ k : Fin K, l (ix2 p k) * r (ix2 k q) := by
  rw [← Equiv.sum_comp (contrEquiv1 (DotDims.plain M K N) K rfl rfl).symm]
  refine Finset.sum_congr rfl fun k _ => ?_
  have hl : (DotDims.plain M K N).lhsIdx (ix2 p q) ((contrEquiv1 (DotDims.plain M K N) K rfl rfl).symm k) = ix2 p k := by
    funext a
    refine Fin.ext ?_
    match a with
    | ⟨0, _⟩ => rfl
    | ⟨1, _⟩ =>
      refine ((DotDims.plain M K N).lhsIdx_val_of_single (cl := (1 : Fin 2)) rfl (ix2 p q) _).trans ?_
      exact contrEquiv1_symm_val (DotDims.plain M K N) K rfl rfl k
  have hr : (DotDims.plain M K N).rhsIdx (ix2 p q) ((contrEquiv1 (DotDims.plain M K N) K rfl rfl).symm k) = ix2 k q := by
    funext a
    refine Fin.ext ?_
    match a with
    | ⟨0, _⟩ =>
      refine ((DotDims.plain M K N).rhsIdx_val_of_single (cr := (0 : Fin 2)) rfl (ix2 p q) _).trans ?_
      exact contrEquiv1_symm_val (DotDims.plain M K N) K rfl rfl k
    | ⟨1, _⟩ => rfl
  rw [hl, hr]

/-- The host's `dot_general` with plain dimension numbers, at an index, over the extended reals. -/
theorem dotGeneral_plain_apply {M K N : Nat} {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) :=
  (Ideal.dotGeneral_apply (DotDims.plain M K N) prec sched l r (ix2 p q)).trans (plain_contr_sum l r p q)

/-- A `tpu.matmul` with plain dimension numbers into the zero accumulator, at an index, over the extended reals. -/
theorem matmul_plain_zero_apply {M K N : Nat} {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) :=
  (Ideal.matmul_constant_zero_apply (DotDims.plain M K N) prec l r (ix2 p q)).trans (plain_contr_sum l r p q)

end Cert.Lib

end
-- ==== Proof.LibCanonOff.lean ====
/-
  What a list of stores leaves at an index the last store does not touch.

  `View.canon` reads the contents a list of rectangle stores leaves (last store first): under the last store's rectangle
  its payload, elsewhere what the earlier stores left.  Here "elsewhere" is stated by coordinates — no index of the
  rectangle is placed at `y` — rather than by membership in the rectangle's finite set of indices, so that one axis on
  which `y` lies outside the rectangle's range proves it by arithmetic, whatever the rectangle's extents.
-/
import Idealize.ShloMosaic.Lib.Pipeline.FrameBody

noncomputable section

namespace Cert.Lib

open Idealize.ShloMosaic

/-- At an index that is the image of none of the last store's own indices, the stores leave what the earlier stores
    left. -/
theorem canon_cons_of_forall_ne {Val : EltTy → Type} [∀ e, Nonempty (Val e)] {s : Shape} {e : EltTy}
    (p : View.Piece Val s e) (L : List (View.Piece Val s e)) {y : s.Idx} (h : ∀ x, p.1.emb x ≠ y) :
    View.canon (p :: L) y = View.canon L y := by
  rw [View.canon_cons]
  unfold Rect.overlay
  rw [preimage?_eq_none h]

end Cert.Lib

end
-- ==== Proof.Spec.lean ====
/-
  The graph-convolution layer as one function of its four argument arrays.

  For a batch x : [2, 10000, 128], a dense adjacency matrix A : [10000, 10000], a weight W : [128, 128] and a bias
  β : [128], over the extended reals,

      support b k j = Σ_l x[b, k, l] · W[l, j]            (the rows of x[b] · W)
      layer b r j   = (Σ_k A[r, k] · support b k j) + β[j]  (A · (x[b] · W) + β).

  Both programs compute exactly these nested sums, in this order of nesting, so no law of the extended reals beyond
  reading each matrix product as its sum is needed, and finiteness of the inputs is never used.
-/
import Idealize.ShloMosaic.PureOps.Ideal
import Idealize.ShloMosaic.Lib.ValueIdx

noncomputable section

namespace Cert.Gcn

open Idealize.ShloMosaic Idealize.ShloMosaic.ValueIdx

/-- Row `k`, column `j` of x[b] · W. -/
def support (x : FVec Ideal ⟨3, ![2, 10000, 128]⟩ .f32) (w : FVec Ideal ⟨2, ![128, 128]⟩ .f32)
    (b : Fin 2) (k : Fin 10000) (j : Fin 128) : EReal :=
  ∑ l : Fin 128, x (ix3 b k l) * w (ix2 l j)

/-- Entry (b, r, j) of A · (x[b] · W) + β. -/
def layerAt (x : FVec Ideal ⟨3, ![2, 10000, 128]⟩ .f32) (adj : FVec Ideal ⟨2, ![10000, 10000]⟩ .f32)
    (w : FVec Ideal ⟨2, ![128, 128]⟩ .f32) (bias : FVec Ideal ⟨1, ![128]⟩ .f32)
    (b : Fin 2) (r : Fin 10000) (j : Fin 128) : EReal :=
  (∑ k : Fin 10000, adj (ix2 r k) * support x w b k j) + bias (ix1 j)

/-- The layer's result array. -/
def layer (x : FVec Ideal ⟨3, ![2, 10000, 128]⟩ .f32) (adj : FVec Ideal ⟨2, ![10000, 10000]⟩ .f32)
    (w : FVec Ideal ⟨2, ![128, 128]⟩ .f32) (bias : FVec Ideal ⟨1, ![128]⟩ .f32) :
    FVec Ideal ⟨3, ![2, 10000, 128]⟩ .f32 :=
  fun i => layerAt x adj w bias ⟨(i 0).val, (i 0).isLt⟩ ⟨(i 1).val, (i 1).isLt⟩ ⟨(i 2).val, (i 2).isLt⟩

theorem layer_apply (x : FVec Ideal ⟨3, ![2, 10000, 128]⟩ .f32) (adj : FVec Ideal ⟨2, ![10000, 10000]⟩ .f32)
    (w : FVec Ideal ⟨2, ![128, 128]⟩ .f32) (bias : FVec Ideal ⟨1, ![128]⟩ .f32) (b : Fin 2) (r : Fin 10000) (j : Fin 128) :
    layer x adj w bias (ix3 b r j) = layerAt x adj w bias b r j := rfl

end Cert.Gcn

end
-- ==== Proof.Payload.lean ====
/-
  The body's arithmetic read at an index, over the extended reals.

  A `tpu.matmul` into a zero accumulator is the plain sum over the contracted axis; the casts that drop or add a block's
  leading unit axis, the column slices of the wide product and the broadcast of the bias row only rename coordinates.
  So the scratch holds, in column 128·b + j of row k, `support b k j`, and the output block holds at (b, r, j) the sum
  over k of the adjacency row times the scratch's column 128·b + j, plus the bias.
-/
import proofs.«144595_g91036126806428_cont_sun_m_1138_18_alg».proof.Proof.Pieces
import proofs.«144595_g91036126806428_cont_sun_m_1138_18_alg».proof.Proof.LibPlainDot
import proofs.«144595_g91036126806428_cont_sun_m_1138_18_alg».proof.Proof.LibCanonOff
import proofs.«144595_g91036126806428_cont_sun_m_1138_18_alg».proof.Proof.Spec
import Idealize.ShloMosaic.Lib.ValueLayout
import Idealize.ShloMosaic.PureOps.Ideal.Laws

noncomputable section

open Idealize.ShloMosaic Idealize.ShloMosaic.TcCoe Idealize.SL.Sem Idealize.ShloMosaic.ValueIdx

namespace Cert.KernelIdeal.Layer

open Cert.KernelIdeal Cert.KernelIdeal.Gen

/-! ## The payloads as compositions of vector operations -/

theorem pay1_eq (v20 : FVec Ideal S128x128 .f32) (v21 : FVec Ideal S1x10000x128 .f32) :
    k0_pay1 (F := Ideal) v20 v21 = matmul dot_S10000x128_S128x128_S10000x128_1_0_0_1_n_n none
      (shapeCast S10000x128 v21 shapeCasts_S1x10000x128_S10000x128) v20 (constant S10000x128 .f32 0x00000000#32) :=
  shapeCast_self _ _

theorem pay2_eq (v20 : FVec Ideal S128x128 .f32) (v27 : FVec Ideal S1x10000x128 .f32) :
    k0_pay2 (F := Ideal) v20 v27 = matmul dot_S10000x128_S128x128_S10000x128_1_0_0_1_n_n none
      (shapeCast S10000x128 v27 shapeCasts_S1x10000x128_S10000x128) v20 (constant S10000x128 .f32 0x00000000#32) :=
  shapeCast_self _ _

/-- One block of x times W, entry (k, j). -/
theorem block_times_weight (v20 : FVec Ideal S128x128 .f32) (v21 : FVec Ideal S1x10000x128 .f32) (k : Fin 10000) (j : Fin 128) :
    matmul dot_S10000x128_S128x128_S10000x128_1_0_0_1_n_n none
      (shapeCast S10000x128 v21 shapeCasts_S1x10000x128_S10000x128) v20 (constant (F := Ideal) S10000x128 .f32 0x00000000#32) (ix2 k j)
      = ∑ l : Fin 128, v21 (ix3 (0 : Fin 1) k l) * v20 (ix2 l j) := by
  refine (Cert.Lib.matmul_plain_zero_apply (M := 10000) (K := 128) (N := 128) none
    (shapeCast S10000x128 v21 shapeCasts_S1x10000x128_S10000x128) v20 k j).trans ?_
  refine Finset.sum_congr rfl fun l _ => ?_
  rw [shapeCast_1ab_ab_apply]

/-! ## The scratch at an index -/

/-- Columns 0..127 of the scratch are x[0] · W. -/
theorem supportCat_left (x0 : FVec Ideal S2x10000x128 .f32) (x1 : FVec Ideal S128x128 .f32) (k : Fin 10000) (j : Fin 128) :
    supportCat (F := Ideal) x0 x1 (ix2 k (⟨j.val, Nat.lt_of_lt_of_le j.isLt (by decide)⟩ : Fin 256))
      = Cert.Gcn.support x0 x1 0 k j := by
  unfold supportCat supportStores
  have hout : ∀ x, (Rect.unit (s := S10000x256) ![0, 128] S10000x128.size inb_S10000x256_S10000x128_0_128).emb x
      ≠ (ix2 k (⟨j.val, Nat.lt_of_lt_of_le j.isLt (by decide)⟩ : Fin 256) : S10000x256.Idx) := by
    intro x hx
    have h1 : 128 + 1 * (x 1).val = j.val := congrArg (fun i : S10000x256.Idx => (i 1).val) hx
    have := j.isLt
    omega
  rw [Cert.Lib.canon_cons_of_forall_ne _ _ hout]
  have hemb : (ix2 k (⟨j.val, Nat.lt_of_lt_of_le j.isLt (by decide)⟩ : Fin 256) : S10000x256.Idx)
      = (Rect.unit (s := S10000x256) ![0, 0] S10000x128.size inb_S10000x256_S10000x128_0_0).emb (ix2 k j) := by
    funext a
    apply Fin.ext
    match a with
    | ⟨0, _⟩ => show k.val = 0 + 1 * k.val; omega
    | ⟨1, _⟩ => show j.val = 0 + 1 * j.val; omega
  rw [hemb, View.canon_cons_emb, pay1_eq, block_times_weight]
  unfold Cert.Gcn.support
  refine Finset.sum_congr rfl fun l _ => ?_
  refine congrArg (· * x1 (ix2 l j)) (congrArg x0 ?_)
  funext a
  apply Fin.ext
  match a with
  | ⟨0, _⟩ => rfl
  | ⟨1, _⟩ => show 0 + 1 * k.val = k.val; omega
  | ⟨2, _⟩ => show 0 + 1 * l.val = l.val; omega

/-- Columns 128..255 of the scratch are x[1] · W. -/
theorem supportCat_right (x0 : FVec Ideal S2x10000x128 .f32) (x1 : FVec Ideal S128x128 .f32) (k : Fin 10000) (j : Fin 128) :
    supportCat (F := Ideal) x0 x1 (ix2 k (⟨128 + j.val, by have := j.isLt; omega⟩ : Fin 256))
      = Cert.Gcn.support x0 x1 1 k j := by
  unfold supportCat supportStores
  have hemb : (ix2 k (⟨128 + j.val, by have := j.isLt; omega⟩ : Fin 256) : S10000x256.Idx)
      = (Rect.unit (s := S10000x256) ![0, 128] S10000x128.size inb_S10000x256_S10000x128_0_128).emb (ix2 k j) := by
    funext a
    apply Fin.ext
    match a with
    | ⟨0, _⟩ => show k.val = 0 + 1 * k.val; omega
    | ⟨1, _⟩ => show 128 + j.val = 128 + 1 * j.val; omega
  rw [hemb, View.canon_cons_emb, pay2_eq, block_times_weight]
  unfold Cert.Gcn.support
  refine Finset.sum_congr rfl fun l _ => ?_
  refine congrArg (· * x1 (ix2 l j)) (congrArg x0 ?_)
  funext a
  apply Fin.ext
  match a with
  | ⟨0, _⟩ => rfl
  | ⟨1, _⟩ => show 0 + 1 * k.val = k.val; omega
  | ⟨2, _⟩ => show 0 + 1 * l.val = l.val; omega

/-! ## The output block at an index -/

theorem pay5_eq (v3 : FVec Ideal S400x10000 .f32) (v4 : FVec Ideal S1x128 .f32) (v6 : FVec Ideal S10000x256 .f32) :
    k0_pay5 (F := Ideal) v3 v4 v6 = shapeCast S1x400x128 (addf
      (extractStridedSlice S400x128 ![0, 0] (matmul dot_S400x10000_S10000x256_S400x256_1_0_0_1_n_n none v3 v6 (constant S400x256 .f32 0x00000000#32)) slices_S400x256_o0_0_S400x128)
      (broadcastTo S400x128 (shapeCast S1x128 v4 shapeCasts_S1x128_S1x128) broadcasts_S1x128_S400x128)) shapeCasts_S400x128_S1x400x128 := rfl

theorem pay6_eq (v3 : FVec Ideal S400x10000 .f32) (v4 : FVec Ideal S1x128 .f32) (v6 : FVec Ideal S10000x256 .f32) :
    k0_pay6 (F := Ideal) v3 v4 v6 = shapeCast S1x400x128 (addf
      (extractStridedSlice S400x128 ![0, 128] (matmul dot_S400x10000_S10000x256_S400x256_1_0_0_1_n_n none v3 v6 (constant S400x256 .f32 0x00000000#32)) slices_S400x256_o0_128_S400x128)
      (broadcastTo S400x128 (shapeCast S1x128 v4 shapeCasts_S1x128_S1x128) broadcasts_S1x128_S400x128)) shapeCasts_S400x128_S1x400x128 := rfl

/-- The adjacency rows times the whole scratch, entry (r, q). -/
theorem rows_times_scratch (v3 : FVec Ideal S400x10000 .f32) (v6 : FVec Ideal S10000x256 .f32) (r : Fin 400) (q : Fin 256) :
    matmul dot_S400x10000_S10000x256_S400x256_1_0_0_1_n_n none v3 v6 (constant (F := Ideal) S400x256 .f32 0x00000000#32) (ix2 r q)
      = ∑ k : Fin 10000, v3 (ix2 r k) * v6 (ix2 k q) :=
  Cert.Lib.matmul_plain_zero_apply (M := 400) (K := 10000) (N := 256) none v3 v6 r q

/-- The bias row, broadcast over the block's rows. -/
theorem bias_row (v4 : FVec Ideal S1x128 .f32) (r : Fin 400) (j : Fin 128) :
    broadcastTo S400x128 (shapeCast S1x128 v4 shapeCasts_S1x128_S1x128) broadcasts_S1x128_S400x128 (ix2 r j) = v4 (ix2 (0 : Fin 1) j) := by
  rw [broadcastTo_1b_ab_apply, shapeCast_self]

/-- Batch entry 0's slab of the output block. -/
theorem outBlock_zero (v3 : FVec Ideal S400x10000 .f32) (v4 : FVec Ideal S1x128 .f32) (v6 : FVec Ideal S10000x256 .f32)
    (r : Fin 400) (j : Fin 128) :
    outBlock (F := Ideal) v3 v4 v6 (ix3 (0 : Fin 2) r j)
      = (∑ k : Fin 10000, v3 (ix2 r k) * v6 (ix2 k (⟨j.val, Nat.lt_of_lt_of_le j.isLt (by decide)⟩ : Fin 256))) + v4 (ix2 (0 : Fin 1) j) := by
  unfold outBlock
  have hout : ∀ x, (Rect.unit (s := S2x400x128) ![1, 0, 0] S1x400x128.size inb_S2x400x128_S1x400x128_1_0_0).emb x
      ≠ (ix3 (0 : Fin 2) r j : S2x400x128.Idx) := by
    intro x hx
    have h0 : 1 + 1 * (x 0).val = 0 := congrArg (fun i : S2x400x128.Idx => (i 0).val) hx
    omega
  rw [Cert.Lib.canon_cons_of_forall_ne _ _ hout]
  have hemb : (ix3 (0 : Fin 2) r j : S2x400x128.Idx)
      = (Rect.unit (s := S2x400x128) ![0, 0, 0] S1x400x128.size inb_S2x400x128_S1x400x128_0_0_0).emb (ix3 (0 : Fin 1) r j) := by
    funext a
    apply Fin.ext
    match a with
    | ⟨0, _⟩ => rfl
    | ⟨1, _⟩ => show r.val = 0 + 1 * r.val; omega
    | ⟨2, _⟩ => show j.val = 0 + 1 * j.val; omega
  rw [hemb, View.canon_cons_emb, pay5_eq, shapeCast_ab_1ab_apply, addf_apply, bias_row,
    slice2_axis1_apply 0 _ slices_S400x256_o0_0_S400x128 r j (⟨j.val, Nat.lt_of_lt_of_le j.isLt (by decide)⟩ : Fin 256) (Nat.zero_add _).symm,
    rows_times_scratch]

/-- Batch entry 1's slab of the output block. -/
theorem outBlock_one (v3 : FVec Ideal S400x10000 .f32) (v4 : FVec Ideal S1x128 .f32) (v6 : FVec Ideal S10000x256 .f32)
    (r : Fin 400) (j : Fin 128) :
    outBlock (F := Ideal) v3 v4 v6 (ix3 (1 : Fin 2) r j)
      = (∑ k : Fin 10000, v3 (ix2 r k) * v6 (ix2 k (⟨128 + j.val, by have := j.isLt; omega⟩ : Fin 256))) + v4 (ix2 (0 : Fin 1) j) := by
  unfold outBlock
  have hemb : (ix3 (1 : Fin 2) r j : S2x400x128.Idx)
      = (Rect.unit (s := S2x400x128) ![1, 0, 0] S1x400x128.size inb_S2x400x128_S1x400x128_1_0_0).emb (ix3 (0 : Fin 1) r j) := by
    funext a
    apply Fin.ext
    match a with
    | ⟨0, _⟩ => rfl
    | ⟨1, _⟩ => show r.val = 0 + 1 * r.val; omega
    | ⟨2, _⟩ => show j.val = 0 + 1 * j.val; omega
  rw [hemb, View.canon_cons_emb, pay6_eq, shapeCast_ab_1ab_apply, addf_apply, bias_row,
    slice2_axis1_apply 128 _ slices_S400x256_o0_128_S400x128 r j (⟨128 + j.val, by have := j.isLt; omega⟩ : Fin 256) rfl,
    rows_times_scratch]

end Cert.KernelIdeal.Layer

end
-- ==== Proof.Blocks.lean ====
/-
  The kernel's result array, from what its 25 grid points write back.

  Point t stages the whole batch x, the whole weight W, rows 400·t .. 400·t + 399 of the adjacency matrix and the bias
  row, and writes back rows 400·t .. 400·t + 399 of both batch entries of the output.  The scratch is filled at point 0
  with the two supports x[b] · W and is left alone afterwards, so by induction on the point it holds them at every
  point; every point's output block is therefore the adjacency rows times the supports plus the bias, which is the
  corresponding block of the layer, and the 25 blocks cover the output array.
-/
import proofs.«144595_g91036126806428_cont_sun_m_1138_18_alg».proof.Proof.Gen.KernelIdeal.Value
import proofs.«144595_g91036126806428_cont_sun_m_1138_18_alg».proof.Proof.Payload
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.Layer

open Cert.KernelIdeal Cert.KernelIdeal.Gen

variable (m : (ℓ : Loc nD τ sig) → Buf (Elt Ideal) ℓ) (ρ : Dev nD → PrngReg)

/-! ## Which block of its array each window holds at a point -/

/-- The printed index maps, decided over the 25 points: x, W and the bias row are always block 0; the adjacency window
    and the output window are on row block `t`. -/
theorem index_facts : ∀ t : Fin cfg0.N,
    win0_0.index t (0 : Fin 3) = 0 ∧ win0_0.index t (1 : Fin 3) = 0 ∧ win0_0.index t (2 : Fin 3) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 3) = 0 ∧ win0_4.index t (1 : Fin 3) = t.val ∧ win0_4.index t (2 : Fin 3) = 0 :=
  (by decide +kernel : ∀ t : Fin grid0.N, _)

theorem row_lt (t : Fin cfg0.N) (r : Fin 400) : t.val * 400 + r.val < 10000 := by
  have hN : cfg0.N = 25 := N_0
  have := t.isLt
  have := r.isLt
  omega

/-- The staged batch block is the whole of x. -/
theorem read_x (c : Dev nD) (t : Fin cfg0.N) (b : Fin 2) (k : Fin 10000) (l : Fin 128) :
    (iblk m c 0 t : Vec Ideal S2x10000x128 .f32) (ix3 b k l) = m ((c : Thread nD τ).loc main_arg0) (ix3 b k l) := by
  obtain ⟨e0, e1, e2, -⟩ := index_facts t
  show V m c main_arg0 (((cfg0.win 0).blk t).view.emb (ix3 b k l)) = _
  refine (congrFun (V_main_arg0 m c) _).trans (congrArg (m ((c : Thread nD τ).loc main_arg0)) ?_)
  funext a
  apply Fin.ext
  match a with
  | ⟨0, _⟩ => show win0_0.index t (0 : Fin 3) * 2 + 1 * b.val = b.val; rw [e0]; omega
  | ⟨1, _⟩ => show win0_0.index t (1 : Fin 3) * 10000 + 1 * k.val = k.val; rw [e1]; omega
  | ⟨2, _⟩ => show win0_0.index t (2 : Fin 3) * 128 + 1 * l.val = l.val; rw [e2]; omega

/-- The staged weight block is the whole of W. -/
theorem read_w (c : Dev nD) (t : Fin cfg0.N) (l j : Fin 128) :
    (iblk m c 1 t : Vec Ideal S128x128 .f32) (ix2 l j) = m ((c : Thread nD τ).loc main_arg2) (ix2 l j) := by
  obtain ⟨-, -, -, e3, e4, -⟩ := index_facts t
  show V m c main_arg2 (((cfg0.win 1).blk t).view.emb (ix2 l j)) = _
  refine (congrFun (V_main_arg2 m c) _).trans (congrArg (m ((c : Thread nD τ).loc main_arg2)) ?_)
  funext a
  apply Fin.ext
  match a with
  | ⟨0, _⟩ => show win0_1.index t (0 : Fin 2) * 128 + 1 * l.val = l.val; rw [e3]; omega
  | ⟨1, _⟩ => show win0_1.index t (1 : Fin 2) * 128 + 1 * j.val = j.val; rw [e4]; omega

/-- The staged adjacency block at point `t` is rows 400·t .. 400·t + 399 of A. -/
theorem read_adj (c : Dev nD) (t : Fin cfg0.N) (r : Fin 400) (k : Fin 10000) :
    (iblk m c 2 t : Vec Ideal S400x10000 .f32) (ix2 r k)
      = m ((c : Thread nD τ).loc main_arg1) (ix2 (⟨t.val * 400 + r.val, row_lt t r⟩ : Fin 10000) k) := by
  obtain ⟨-, -, -, -, -, e5, e6, -⟩ := index_facts t
  show V m c main_arg1 (((cfg0.win 2).blk t).view.emb (ix2 r k)) = _
  refine (congrFun (V_main_arg1 m c) _).trans (congrArg (m ((c : Thread nD τ).loc main_arg1)) ?_)
  funext a
  apply Fin.ext
  match a with
  | ⟨0, _⟩ => show win0_2.index t (0 : Fin 2) * 400 + 1 * r.val = t.val * 400 + r.val; rw [e5]; omega
  | ⟨1, _⟩ => show win0_2.index t (1 : Fin 2) * 10000 + 1 * k.val = k.val; rw [e6]; omega

/-- The bias row the region finds: the host reshapes β : [128] to [1, 128] before the launch. -/
theorem bias_array (c : Dev nD) :
    (V m c main_v0 : S1x128.Idx → EReal) = shapeCast S1x128 (m ((c : Thread nD τ).loc main_arg3)) shapeCasts_S128_S1x128 := by
  dsimp only [Gen.V, Gen.hostOps0]
  after_results
  rfl

/-- The staged bias block is β as a row. -/
theorem read_bias (c : Dev nD) (t : Fin cfg0.N) (j : Fin 128) :
    (iblk m c 3 t : Vec Ideal S1x128 .f32) (ix2 (0 : Fin 1) j) = m ((c : Thread nD τ).loc main_arg3) (ix1 j) := by
  obtain ⟨-, -, -, -, -, -, -, e7, e8, -⟩ := index_facts t
  show V m c main_v0 (((cfg0.win 3).blk t).view.emb (ix2 (0 : Fin 1) j)) = _
  have hemb : ((cfg0.win 3).blk t).view.emb (ix2 (0 : Fin 1) j) = (ix2 (0 : Fin 1) j : S1x128.Idx) := by
    funext a
    apply Fin.ext
    match a with
    | ⟨0, _⟩ => show win0_3.index t (0 : Fin 2) * 1 + 1 * 0 = 0; rw [e7]
    | ⟨1, _⟩ => show win0_3.index t (1 : Fin 2) * 128 + 1 * j.val = j.val; rw [e8]; omega
  rw [hemb]
  refine (congrFun (bias_array m c) _).trans ?_
  exact shapeCast_a_1a_apply _ _ (0 : Fin 1) j

/-! ## The scratch holds the two supports at every point -/

/-- The grid's first point. -/
abbrev first : Fin cfg0.N := ⟨0, by rw [show cfg0.N = 25 from N_0]; decide⟩

/-- After any point the scratch is what the first point stored: later points do not store into it. -/
theorem scratch_at (c : Dev nD) : ∀ (n : ℕ) (hn : n < cfg0.N),
    (outsAt0 m c n hn).2 = supportCat (F := Ideal) (iblk m c 0 first) (iblk m c 1 first)
  | 0, h => by
    rw [outsAt0_A m c ⟨0, h⟩ rfl]
    dsimp only
    exact scratch_first (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) scM0_0 (Memref.isWhole_whole _) ((hcond0_0 ⟨0, h⟩).mpr rfl) (iblk m c 0 ⟨0, h⟩) (iblk m c 1 ⟨0, h⟩) (iblk m c 2 ⟨0, h⟩) (iblk m c 3 ⟨0, h⟩)
  | n + 1, h => by
    have hN : cfg0.N = 25 := N_0
    have hB : ¬(⟨n + 1, h⟩ : Fin cfg0.N).val % 25 = 0 := by dsimp only; omega
    rw [outsAt0_B m c ⟨n + 1, h⟩ hB]
    dsimp only [sout0_B_0]
    exact scratch_at c n _

/-- Column j of the scratch's left half, row k: entry (k, j) of x[0] · W. -/
theorem scratch_left (c : Dev nD) (k : Fin 10000) (j : Fin 128) :
    supportCat (F := Ideal) (iblk m c 0 first) (iblk m c 1 first) (ix2 k (⟨j.val, Nat.lt_of_lt_of_le j.isLt (by decide)⟩ : Fin 256))
      = Cert.Gcn.support (m ((c : Thread nD τ).loc main_arg0)) (m ((c : Thread nD τ).loc main_arg2)) 0 k j := by
  refine (supportCat_left (iblk m c 0 first) (iblk m c 1 first) k j).trans ?_
  unfold Cert.Gcn.support
  refine Finset.sum_congr rfl fun l _ => ?_
  rw [read_x m c first 0 k l, read_w m c first l j]

/-- Column j of the scratch's right half, row k: entry (k, j) of x[1] · W. -/
theorem scratch_right (c : Dev nD) (k : Fin 10000) (j : Fin 128) :
    supportCat (F := Ideal) (iblk m c 0 first) (iblk m c 1 first) (ix2 k (⟨128 + j.val, by have := j.isLt; omega⟩ : Fin 256))
      = Cert.Gcn.support (m ((c : Thread nD τ).loc main_arg0)) (m ((c : Thread nD τ).loc main_arg2)) 1 k j := by
  refine (supportCat_right (iblk m c 0 first) (iblk m c 1 first) k j).trans ?_
  unfold Cert.Gcn.support
  refine Finset.sum_congr rfl fun l _ => ?_
  rw [read_x m c first 1 k l, read_w m c first l j]

/-! ## What each point writes back -/

/-- The output block after point `t`: the point's adjacency rows and the bias row against the two supports. -/
theorem out_at (c : Dev nD) (t : Fin cfg0.N) :
    (outsAt0 m c t.val t.isLt).1
      = outBlock (F := Ideal) (iblk m c 2 t) (iblk m c 3 t) (supportCat (F := Ideal) (iblk m c 0 first) (iblk m c 1 first)) := by
  have hN : cfg0.N = 25 := N_0
  by_cases h0 : t.val % 25 = 0
  · obtain rfl : t = first := Fin.ext (by have := t.isLt; show t.val = 0; omega)
    rw [outsAt0_A m c first h0]
    dsimp only
    exact out_first (F := Ideal) c (grid0.coords first) (ms0_0 first) (hs0_0 first) (ms0_1 first) (hs0_1 first) (ms0_2 first) (hs0_2 first) (ms0_3 first) (hs0_3 first) (ms0_4 first) (hs0_4 first) scM0_0 (Memref.isWhole_whole _) ((hcond0_0 first).mpr h0) (iblk m c 0 first) (iblk m c 1 first) (iblk m c 2 first) (iblk m c 3 first)
  · rw [outsAt0_B m c t h0]
    dsimp only
    refine (out_later (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (iblk m c 0 t) (iblk m c 1 t) (iblk m c 2 t) (iblk m c 3 t)
      (outsAt0 m c (t.val - 1) (Nat.lt_of_le_of_lt (Nat.sub_le _ _) t.isLt)).2).trans ?_
    rw [scratch_at m c (t.val - 1) _]

/-- The layer of the launch contents of the four arguments, as contents of the result array. -/
abbrev result (c : Dev nD) : Buf (Elt Ideal) ((c : Thread nD τ).loc main_v1) :=
  Cert.Gcn.layer (m ((c : Thread nD τ).loc main_arg0)) (m ((c : Thread nD τ).loc main_arg1))
    (m ((c : Thread nD τ).loc main_arg2)) (m ((c : Thread nD τ).loc main_arg3))

/-- What point `t` writes back is block `t` of the layer. -/
theorem flushed_eq (c : Dev nD) (t : Fin cfg0.N) :
    (dats m 0 c).flushed 4 t = ((cfg0.win 4).blk t).view.read (Elt Ideal) (result m c) := by
  rw [Cert.KernelIdeal.Value.flushed4, out_at]
  obtain ⟨-, -, -, -, -, -, -, -, -, e9, e10, e11⟩ := index_facts t
  funext y
  obtain ⟨b, r, j, rfl⟩ : ∃ (b : Fin 2) (r : Fin 400) (j : Fin 128), y = ix3 b r j := ⟨y 0, y 1, y 2, eq_ix3 y⟩
  have hemb : ((cfg0.win 4).blk t).view.emb (ix3 b r j)
      = (ix3 b (⟨t.val * 400 + r.val, row_lt t r⟩ : Fin 10000) j : S2x10000x128.Idx) := by
    funext a
    apply Fin.ext
    match a with
    | ⟨0, _⟩ => show win0_4.index t (0 : Fin 3) * 2 + 1 * b.val = b.val; rw [e9]; omega
    | ⟨1, _⟩ => show win0_4.index t (1 : Fin 3) * 400 + 1 * r.val = t.val * 400 + r.val; rw [e10]; omega
    | ⟨2, _⟩ => show win0_4.index t (2 : Fin 3) * 128 + 1 * j.val = j.val; rw [e11]; omega
  show outBlock (F := Ideal) (iblk m c 2 t) (iblk m c 3 t) (supportCat (F := Ideal) (iblk m c 0 first) (iblk m c 1 first)) (ix3 b r j)
    = result m c (((cfg0.win 4).blk t).view.emb (ix3 b r j))
  rw [hemb]
  show _ = Cert.Gcn.layerAt _ _ _ _ b (⟨t.val * 400 + r.val, row_lt t r⟩ : Fin 10000) j
  unfold Cert.Gcn.layerAt
  match b with
  | ⟨0, _⟩ =>
    refine (outBlock_zero (iblk m c 2 t) (iblk m c 3 t) (supportCat (F := Ideal) (iblk m c 0 first) (iblk m c 1 first)) r j).trans ?_
    refine congrArg₂ (· + ·) (Finset.sum_congr rfl fun k _ => ?_) (read_bias m c t j)
    rw [read_adj m c t r k, scratch_left m c k j]
    rfl
  | ⟨1, _⟩ =>
    refine (outBlock_one (iblk m c 2 t) (iblk m c 3 t) (supportCat (F := Ideal) (iblk m c 0 first) (iblk m c 1 first)) r j).trans ?_
    refine congrArg₂ (· + ·) (Finset.sum_congr rfl fun k _ => ?_) (read_bias m c t j)
    rw [read_adj m c t r k, scratch_right m c k j]
    rfl

/-! ## The 25 blocks cover the output array -/

/-- An index of the output array is in point `t`'s block iff each coordinate is in the block's range on its axis. -/
theorem mem_block (t : Fin cfg0.N) (i : S2x10000x128.Idx) :
    i ∈ ((cfg0.win 4).blk t).view.set ↔ ∀ a : Fin 3, win0_4.index t a * S2x400x128.size a ≤ (i a).val
      ∧ (i a).val < win0_4.index t a * S2x400x128.size a + S2x400x128.size a := by
  show i ∈ ((View.whole main_v1).slice (win0_4.rect t)).set ↔ _
  rw [View.set_slice_whole, Rect.mem_set_unit]
  exact Iff.rfl

/-- The result array after the run is the layer: row r of either batch entry is written back by point r / 400. -/
theorem final (c : Dev nD) : (dats m 0 c).arrAt 4 cfg0.N = result m c :=
  (dats m 0 c).arrAt_eq_of_cover 4 (result m c) (fun t _ => flushed_eq m c t) fun i => by
    have hN : cfg0.N = 25 := N_0
    have h0 : (i 0).val < 2 := (i 0).isLt
    have h1 : (i 1).val < 10000 := (i 1).isLt
    have h2 : (i 2).val < 128 := (i 2).isLt
    have ht : (i 1).val / 400 < cfg0.N := by rw [hN]; omega
    obtain ⟨-, -, -, -, -, -, -, -, -, e9, e10, e11⟩ := index_facts ⟨(i 1).val / 400, ht⟩
    refine ⟨⟨(i 1).val / 400, ht⟩, flush0_4 _, ?_⟩
    rw [mem_block]
    intro a
    match a with
    | ⟨0, _⟩ =>
      show win0_4.index ⟨(i 1).val / 400, ht⟩ (0 : Fin 3) * 2 ≤ (i 0).val
        ∧ (i 0).val < win0_4.index ⟨(i 1).val / 400, ht⟩ (0 : Fin 3) * 2 + 2
      rw [e9]; omega
    | ⟨1, _⟩ =>
      show win0_4.index ⟨(i 1).val / 400, ht⟩ (1 : Fin 3) * 400 ≤ (i 1).val
        ∧ (i 1).val < win0_4.index ⟨(i 1).val / 400, ht⟩ (1 : Fin 3) * 400 + 400
      rw [e10]; dsimp only; omega
    | ⟨2, _⟩ =>
      show win0_4.index ⟨(i 1).val / 400, ht⟩ (2 : Fin 3) * 128 ≤ (i 2).val
        ∧ (i 2).val < win0_4.index ⟨(i 1).val / 400, ht⟩ (2 : Fin 3) * 128 + 128
      rw [e11]; omega

/-- The kernel's run, read: the result array ends at the layer of the launch contents, the arguments unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩)
    (Cert.KernelIdeal.Value.run_blocks m ρ)

end Cert.KernelIdeal.Layer

end
-- ==== Proof.Reference.lean ====
/-
  The reference computes the layer.

  The host program slices each batch entry out of x, multiplies it by W, multiplies the adjacency matrix by the
  product, adds the bias broadcast over the rows, and stacks the two results.  Read one operation at a time at an index,
  entry (b, r, j) of its result is `layerAt b r j`: the two matrix products are the nested sums, and every other
  operation only renames coordinates.
-/
import proofs.«144595_g91036126806428_cont_sun_m_1138_18_alg».proof.Proof.Gen.ReferenceIdeal.Read
import proofs.«144595_g91036126806428_cont_sun_m_1138_18_alg».proof.Proof.Spec
import Idealize.ShloMosaic.Lib.Pipeline.Value
import Idealize.ShloMosaic.Lib.ValueIdx

noncomputable section

open Idealize.ShloMosaic Idealize.ShloMosaic.TcCoe Idealize.SL.Sem Idealize.ShloMosaic.ValueIdx

namespace Cert.ReferenceIdeal.RefValue

open Cert.ReferenceIdeal Cert.ReferenceIdeal.Gen Cert.ReferenceIdeal.Read

/-- x[0] · W as the host computes it, entry (k, j). -/
theorem support0 (x0 : FVec Ideal S2x10000x128 .f32) (x2 : FVec Ideal S128x128 .f32) (k : Fin 10000) (j : Fin 128) :
    val_main_v2 (F := Ideal) x0 x2 (ix2 k j) = Cert.Gcn.support x0 x2 0 k j := by
  rw [val_main_v2_apply]
  unfold Cert.Gcn.support
  refine Finset.sum_congr rfl fun l _ => ?_
  rw [val_main_v1_apply, val_main_v0_apply]
  have e1 : idx_main_v0 (idx_main_v1 (lidx_main_v2 (ix2 k j) l)) = ix3 (0 : Fin 2) k l := by
    funext a
    apply Fin.ext
    match a with
    | ⟨0, _⟩ => rfl
    | ⟨1, _⟩ => show (k.val * 128 + l.val) / 128 % 10000 = k.val; have := k.isLt; have := l.isLt; omega
    | ⟨2, _⟩ => show (k.val * 128 + l.val) % 128 = l.val; have := l.isLt; omega
  have e2 : ridx_main_v2 (ix2 k j) l = ix2 l j := by
    funext a
    match a with
    | ⟨0, _⟩ => rfl
    | ⟨1, _⟩ => rfl
  rw [e1, e2]

/-- x[1] · W as the host computes it, entry (k, j). -/
theorem support1 (x0 : FVec Ideal S2x10000x128 .f32) (x2 : FVec Ideal S128x128 .f32) (k : Fin 10000) (j : Fin 128) :
    val_main_v9 (F := Ideal) x0 x2 (ix2 k j) = Cert.Gcn.support x0 x2 1 k j := by
  rw [val_main_v9_apply]
  unfold Cert.Gcn.support
  refine Finset.sum_congr rfl fun l _ => ?_
  rw [val_main_v8_apply, val_main_v7_apply]
  have e1 : idx_main_v7 (idx_main_v8 (lidx_main_v9 (ix2 k j) l)) = ix3 (1 : Fin 2) k l := by
    funext a
    apply Fin.ext
    match a with
    | ⟨0, _⟩ => rfl
    | ⟨1, _⟩ => show (k.val * 128 + l.val) / 128 % 10000 = k.val; have := k.isLt; have := l.isLt; omega
    | ⟨2, _⟩ => show (k.val * 128 + l.val) % 128 = l.val; have := l.isLt; omega
  have e2 : ridx_main_v9 (ix2 k j) l = ix2 l j := by
    funext a
    match a with
    | ⟨0, _⟩ => rfl
    | ⟨1, _⟩ => rfl
  rw [e1, e2]

/-- Batch entry 0's result before stacking, entry (r, j). -/
theorem slab0 (x0 : FVec Ideal S2x10000x128 .f32) (x1 : FVec Ideal S10000x10000 .f32) (x2 : FVec Ideal S128x128 .f32)
    (x3 : FVec Ideal S128 .f32) (r : Fin 10000) (j : Fin 128) :
    val_main_v6 (F := Ideal) x0 x1 x2 x3 (ix2 r j) = Cert.Gcn.layerAt x0 x1 x2 x3 0 r j := by
  rw [val_main_v6_apply, val_main_v3_apply, val_main_v5_apply, val_main_v4_apply]
  unfold Cert.Gcn.layerAt
  show (∑ k : Fin 10000, x1 (lidx_main_v3 (ix2 r j) k) * val_main_v2 (F := Ideal) x0 x2 (ridx_main_v3 (ix2 r j) k))
      + x3 (idx_main_v4 (idx_main_v5 (ix2 r j))) = _
  refine congrArg₂ (· + ·) (Finset.sum_congr rfl fun k _ => ?_) (congrArg x3 ?_)
  · have el : lidx_main_v3 (ix2 r j) k = ix2 r k := by
      funext a
      match a with
      | ⟨0, _⟩ => rfl
      | ⟨1, _⟩ => rfl
    have er : ridx_main_v3 (ix2 r j) k = ix2 k j := by
      funext a
      match a with
      | ⟨0, _⟩ => rfl
      | ⟨1, _⟩ => rfl
    rw [el, er, support0]
  · funext a
    match a with
    | ⟨0, _⟩ => rfl

/-- Batch entry 1's result before stacking, entry (r, j). -/
theorem slab1 (x0 : FVec Ideal S2x10000x128 .f32) (x1 : FVec Ideal S10000x10000 .f32) (x2 : FVec Ideal S128x128 .f32)
    (x3 : FVec Ideal S128 .f32) (r : Fin 10000) (j : Fin 128) :
    val_main_v13 (F := Ideal) x0 x1 x2 x3 (ix2 r j) = Cert.Gcn.layerAt x0 x1 x2 x3 1 r j := by
  rw [val_main_v13_apply, val_main_v10_apply, val_main_v12_apply, val_main_v11_apply]
  unfold Cert.Gcn.layerAt
  show (∑ k : Fin 10000, x1 (lidx_main_v10 (ix2 r j) k) * val_main_v9 (F := Ideal) x0 x2 (ridx_main_v10 (ix2 r j) k))
      + x3 (idx_main_v11 (idx_main_v12 (ix2 r j))) = _
  refine congrArg₂ (· + ·) (Finset.sum_congr rfl fun k _ => ?_) (congrArg x3 ?_)
  · have el : lidx_main_v10 (ix2 r j) k = ix2 r k := by
      funext a
      match a with
      | ⟨0, _⟩ => rfl
      | ⟨1, _⟩ => rfl
    have er : ridx_main_v10 (ix2 r j) k = ix2 k j := by
      funext a
      match a with
      | ⟨0, _⟩ => rfl
      | ⟨1, _⟩ => rfl
    rw [el, er, support1]
  · funext a
    match a with
    | ⟨0, _⟩ => rfl

/-- The stacked result is the layer. -/
theorem result_eq (x0 : FVec Ideal S2x10000x128 .f32) (x1 : FVec Ideal S10000x10000 .f32) (x2 : FVec Ideal S128x128 .f32)
    (x3 : FVec Ideal S128 .f32) :
    val_main_v16 (F := Ideal) x0 x1 x2 x3 = Cert.Gcn.layer x0 x1 x2 x3 := by
  funext i
  obtain ⟨b, r, j, rfl⟩ : ∃ (b : Fin 2) (r : Fin 10000) (j : Fin 128), i = ix3 b r j := ⟨i 0, i 1, i 2, eq_ix3 i⟩
  rw [Cert.Gcn.layer_apply]
  unfold val_main_v16
  match b with
  | ⟨0, _⟩ =>
    refine (concatenate_pair_apply_left (t := S2x10000x128) (s₁ := S1x10000x128) (s₂ := S1x10000x128) (0 : Fin 3)
      (val_main_v14 (F := Ideal) x0 x1 x2 x3) (val_main_v15 (F := Ideal) x0 x1 x2 x3) concatenates_S1x10000x128_S1x10000x128_S2x10000x128_d0
      (ix3 (⟨0, by decide⟩ : Fin 2) r j) rfl (ix3 (0 : Fin 1) r j) (fun a => by
        match a with
        | ⟨0, _⟩ => rfl
        | ⟨1, _⟩ => rfl
        | ⟨2, _⟩ => rfl)).trans ?_
    have e : idx_main_v14 (ix3 (0 : Fin 1) r j) = ix2 r j := by
      funext a
      match a with
      | ⟨0, _⟩ => rfl
      | ⟨1, _⟩ => rfl
    rw [val_main_v14_apply, e]
    exact slab0 x0 x1 x2 x3 r j
  | ⟨1, _⟩ =>
    refine (concatenate_pair_apply_right (t := S2x10000x128) (s₁ := S1x10000x128) (s₂ := S1x10000x128) (0 : Fin 3)
      (val_main_v14 (F := Ideal) x0 x1 x2 x3) (val_main_v15 (F := Ideal) x0 x1 x2 x3) concatenates_S1x10000x128_S1x10000x128_S2x10000x128_d0
      (ix3 (⟨1, by decide⟩ : Fin 2) r j) rfl rfl (ix3 (0 : Fin 1) r j) (fun a ha => by
        match a with
        | ⟨0, _⟩ => exact absurd rfl ha
        | ⟨1, _⟩ => rfl
        | ⟨2, _⟩ => rfl) rfl).trans ?_
    have e : idx_main_v15 (ix3 (0 : Fin 1) r j) = ix2 r j := by
      funext a
      match a with
      | ⟨0, _⟩ => rfl
      | ⟨1, _⟩ => rfl
    rw [val_main_v15_apply, e]
    exact slab1 x0 x1 x2 x3 r j

end Cert.ReferenceIdeal.RefValue

end
-- ==== Proof.lean ====
/-
  A graph-convolution layer, out[b] = A · (x[b] · W) + β for a batch of two, as a tiled kernel against its plain
  reference, over the extended reals.

  The kernel walks 25 row stripes of the dense adjacency matrix A.  At the first stripe it computes the two supports
  x[0] · W and x[1] · W side by side into a scratch that stays resident; at every stripe it multiplies the stripe's 400
  rows of A by the whole scratch and adds the bias to each half of the product.  The reference computes, for each batch
  entry, x[b] · W, then A times it, adds the bias, and stacks the two.  Both are the same nested sums

      out[b, r, j] = (Σ_k A[r, k] · (Σ_l x[b, k, l] · W[l, j])) + β[j]

  (`Cert.Gcn.layer`): the kernel's side because the scratch holds the supports at every stripe (an induction over the
  stripes) and the stripes' output blocks cover the result; the reference's side one operation at a time.  Each matrix
  product into a zero accumulator is read as its plain sum; nothing else about the extended reals is used, and the
  finiteness precondition is not needed.  The ideal pass rewrote nothing, so the kernel's idealization is its own text.
-/
import proofs.«144595_g91036126806428_cont_sun_m_1138_18_alg».proof.Defs
import proofs.«144595_g91036126806428_cont_sun_m_1138_18_alg».proof.Proof.Gen.Kernel
import proofs.«144595_g91036126806428_cont_sun_m_1138_18_alg».proof.Proof.Gen.Kernel.Skeleton
import proofs.«144595_g91036126806428_cont_sun_m_1138_18_alg».proof.Proof.Gen.Kernel.Launch
import proofs.«144595_g91036126806428_cont_sun_m_1138_18_alg».proof.Proof.Gen.Kernel.Points
import proofs.«144595_g91036126806428_cont_sun_m_1138_18_alg».proof.Proof.Gen.Kernel.Frame
import proofs.«144595_g91036126806428_cont_sun_m_1138_18_alg».proof.Proof.Gen.KernelIdeal
import proofs.«144595_g91036126806428_cont_sun_m_1138_18_alg».proof.Proof.Gen.KernelIdeal.Skeleton
import proofs.«144595_g91036126806428_cont_sun_m_1138_18_alg».proof.Proof.Gen.KernelIdeal.Launch
import proofs.«144595_g91036126806428_cont_sun_m_1138_18_alg».proof.Proof.Gen.KernelIdeal.Points
import proofs.«144595_g91036126806428_cont_sun_m_1138_18_alg».proof.Proof.Gen.KernelIdeal.Frame
import proofs.«144595_g91036126806428_cont_sun_m_1138_18_alg».proof.Proof.Gen.ReferenceIdeal
import proofs.«144595_g91036126806428_cont_sun_m_1138_18_alg».proof.Proof.Gen.KernelIdeal.Value
import proofs.«144595_g91036126806428_cont_sun_m_1138_18_alg».proof.Proof.Gen.ReferenceIdeal.Run
import proofs.«144595_g91036126806428_cont_sun_m_1138_18_alg».proof.Proof.Gen.ReferenceIdeal.Read
import proofs.«144595_g91036126806428_cont_sun_m_1138_18_alg».proof.Proof.Gen.Pre_finite_inputs
import proofs.«144595_g91036126806428_cont_sun_m_1138_18_alg».proof.Proof.Blocks
import proofs.«144595_g91036126806428_cont_sun_m_1138_18_alg».proof.Proof.Reference
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference is a straight line of host operations: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Over the extended reals the kernel's result array ends at the layer of its arguments, and so does the reference's,
    from arguments that agree. -/
theorem algebraic : Cert.algebraic_KernelIdeal_ReferenceIdeal := by
  intro m ρ m' ρ' _ hagree
  refine ⟨fun c => Cert.KernelIdeal.Layer.result m c, Cert.KernelIdeal.Layer.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  exact (Cert.ReferenceIdeal.Read.val_main_v16_eq _ _ _ _).trans (Cert.ReferenceIdeal.RefValue.result_eq _ _ _ _)

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
